-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S5x64x64 : Shape := ⟨3, ![5, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S64 .f32) (main_arg11 : FVec F S64 .f32) (main_arg12 : FVec F S64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S1600000 32) (main_arg2 : IVec S1600000 32) (main_arg3 : FVec F S1600000 .f32) (main_arg4 : FVec F S5x64x64 .f32) (main_arg5 : FVec F S5x64x64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S5x64x64 .f32 := Host.absf main_arg4
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S5x64x64 .f32 := Host.absf main_arg5
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S1600000 : Shape := ⟨1, ![1600000]⟩
abbrev S5x64x64 : Shape := ⟨3, ![5, 64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 79
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S5x64x64, .f32⟩
  | .hbm, ⟨5, _⟩ => ⟨S5x64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64x64, .f32⟩
  | .hbm, ⟨47, _⟩ => ⟨S64x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S64x64, .f32⟩
  | .hbm, ⟨54, _⟩ => ⟨S1x64x64, .f32⟩
  | .hbm, ⟨55, _⟩ => ⟨S64x64, .f32⟩
  | .hbm, ⟨56, _⟩ => ⟨S1x64x64, .f32⟩
  | .hbm, ⟨57, _⟩ => ⟨S64x64, .f32⟩
  | .hbm, ⟨58, _⟩ => ⟨S64x64, .f32⟩
  | .hbm, ⟨59, _⟩ => ⟨S1x64x64, .f32⟩
  | .hbm, ⟨60, _⟩ => ⟨S64x64, .f32⟩
  | .hbm, ⟨61, _⟩ => ⟨S64x64, .f32⟩
  | .hbm, ⟨62, _⟩ => ⟨S1x64x64, .f32⟩
  | .hbm, ⟨63, _⟩ => ⟨S64x64, .f32⟩
  | .hbm, ⟨64, _⟩ => ⟨S1x64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S1x64x64, .f32⟩
  | .hbm, ⟨69, _⟩ => ⟨S64x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x128, .f32⟩
  | .local _ .vmem, ⟨21, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x128.size a ≤ S100000x128.size a
  hwx0_17 : ∀ i : grid0.Coords, EltTy.bits .f32 = 32 ∨ (Rect.block (s := S100000x128) S5000x128.size (cc0_transform_17 i) (hinb0_17 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v53) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v54) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v55) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v56) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v57) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v58) S5000x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S5x64x64 : Shape := ⟨3, ![5, 64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S100000x128 : Shape := ⟨2, ![100000, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S5x64x64, .f32⟩
  | .hbm, ⟨5, _⟩ => ⟨S5x64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1600000x1, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64x64, .f32⟩
  | .hbm, ⟨47, _⟩ => ⟨S64x64, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S64x64, .f32⟩
  | .hbm, ⟨54, _⟩ => ⟨S100000x64, .f32⟩
  | .hbm, ⟨55, _⟩ => ⟨S1x64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S64x64, .f32⟩
  | .hbm, ⟨60, _⟩ => ⟨S1x64x64, .f32⟩
  | .hbm, ⟨61, _⟩ => ⟨S64x64, .f32⟩
  | .hbm, ⟨62, _⟩ => ⟨S64x64, .f32⟩
  | .hbm, ⟨63, _⟩ => ⟨S100000x64, .f32⟩
  | .hbm, ⟨64, _⟩ => ⟨S1x64x64, .f32⟩
  | .hbm, ⟨65, _⟩ => ⟨S64x64, .f32⟩
  | .hbm, ⟨66, _⟩ => ⟨S100000x64, .f32⟩
  | .hbm, ⟨67, _⟩ => ⟨S100000x64, .f32⟩
  | .hbm, ⟨68, _⟩ => ⟨S1x64x64, .f32⟩
  | .hbm, ⟨69, _⟩ => ⟨S64x64, .f32⟩
  | .hbm, ⟨70, _⟩ => ⟨S100000x64, .f32⟩
  | .hbm, ⟨71, _⟩ => ⟨S100000x64, .f32⟩
  | .hbm, ⟨72, _⟩ => ⟨S1x64x64, .f32⟩
  | .hbm, ⟨73, _⟩ => ⟨S64x64, .f32⟩
  | .hbm, ⟨74, _⟩ => ⟨S100000x64, .f32⟩
  | .hbm, ⟨75, _⟩ => ⟨S100000x64, .f32⟩
  | .hbm, ⟨76, _⟩ => ⟨S1x64x64, .f32⟩
  | .hbm, ⟨77, _⟩ => ⟨S64x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_cst : Ref sig .tc := ⟨.hbm, 80, rfl⟩
abbrev main_call0_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  concatenates_S100000x64_S100000x64_S100000x128_d1 : Shape.Concatenates [S100000x64, S100000x64] S100000x128 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  What both programs compute, one output row at a time, on the extended reals.

  A row of the result depends on one row each of the features `x`, of the once-propagated features `a` and of the
  twice-propagated features `b` (64 entries each), on six 64×64 weight matrices and on two sets of four per-column
  normalisation vectors. Columns 0…63 hold the rectified and normalised first projection, columns 64…127 the normalised
  second projection:

    out[r, q]      = γa[q] · (max (x[r,:]·Wa0[:,q] + a[r,:]·Wa1[:,q] + b[r,:]·Wa2[:,q]) 0 − μa[q]) · rsqrt (σa[q] + ε) + βa[q]
    out[r, 64 + q] = γb[q] · (     x[r,:]·Wb0[:,q] + a[r,:]·Wb1[:,q] + b[r,:]·Wb2[:,q]     − μb[q]) · rsqrt (σb[q] + ε) + βb[q]

  The three inner products are added left to right, and the normalisation multiplies `γ · (h − μ)` by the reciprocal
  root before adding `β`: the association both programs use, so no law of arithmetic beyond the definitions is needed
  (in particular none that fails at an infinity). The two float literals (zero and ε) are kept as the words they are.
-/
import Idealize.ShloMosaic.PureOps.Ideal
import Idealize.ShloMosaic.Lib.ValueIdx

noncomputable section

namespace Cert.ProjNorm

open Idealize.ShloMosaic Idealize.ShloMosaic.ValueIdx

/-- The shape of a weight matrix. -/
abbrev W64 : Shape := ⟨2, ![64, 64]⟩

/-- Column `q` of `xr·w0 + ar·w1 + br·w2` for three rows `xr`, `ar`, `br`, the products added left to right. -/
def rowLin (xr ar br : Fin 64 → EReal) (w0 w1 w2 : W64.Idx → EReal) (q : Fin 64) : EReal :=
  (∑ k : Fin 64, xr k * w0 (ix2 k q)) + (∑ k : Fin 64, ar k * w1 (ix2 k q)) + ∑ k : Fin 64, br k * w2 (ix2 k q)

/-- Normalisation of `h` at column `q` by the stored statistics: `γ · (h − μ) · rsqrt (σ + ε) + β`. -/
def norm (g b mu var : Fin 64 → EReal) (h : EReal) (q : Fin 64) : EReal :=
  g q * (h - mu q) * Ideal.rsqrt (var q + Ideal.ofBits .f32 0x3A83126F#32) + b q

/-- The column `col % 64` as an index of a 64-vector. -/
abbrev colOf (col : ℕ) : Fin 64 := ⟨col % 64, Nat.mod_lt _ (by decide)⟩

/-- Entry `col` (of 128) of an output row: the rectified, normalised first projection in the left half, the
    normalised second projection in the right half. -/
def rowOut (xr ar br : Fin 64 → EReal) (wa0 wa1 wa2 wb0 wb1 wb2 : W64.Idx → EReal)
    (ga ba ma va gb bb mb vb : Fin 64 → EReal) (col : ℕ) : EReal :=
  if col / 64 = 0 then
    norm ga ba ma va (max (rowLin xr ar br wa0 wa1 wa2 (colOf col)) (Ideal.ofBits .f32 0x00000000#32)) (colOf col)
  else
    norm gb bb mb vb (rowLin xr ar br wb0 wb1 wb2 (colOf col)) (colOf col)

/-- The whole result over `n` rows: row `i 0` of the three feature arrays through `rowOut`. -/
def result {n : ℕ} (x a b : (⟨2, ![n, 64]⟩ : Shape).Idx → EReal) (wa0 wa1 wa2 wb0 wb1 wb2 : W64.Idx → EReal)
    (ga ba ma va gb bb mb vb : Fin 64 → EReal) : (⟨2, ![n, 128]⟩ : Shape).Idx → EReal := fun i =>
  rowOut (fun k => x (ix2 ⟨(i 0).val, idx2_lt0 i⟩ k)) (fun k => a (ix2 ⟨(i 0).val, idx2_lt0 i⟩ k))
    (fun k => b (ix2 ⟨(i 0).val, idx2_lt0 i⟩ k)) wa0 wa1 wa2 wb0 wb1 wb2 ga ba ma va gb bb mb vb (i 1).val

/-- A row of the result reads only that row of the three feature arrays: two results over feature arrays of any
    heights, with the same weights and normalisation vectors, agree at two indices in the same column whose rows of
    features agree. -/
theorem result_rows {n n' : ℕ} (x a b : (⟨2, ![n, 64]⟩ : Shape).Idx → EReal) (x' a' b' : (⟨2, ![n', 64]⟩ : Shape).Idx → EReal)
    (wa0 wa1 wa2 wb0 wb1 wb2 : W64.Idx → EReal) (ga ba ma va gb bb mb vb : Fin 64 → EReal)
    (i : (⟨2, ![n, 128]⟩ : Shape).Idx) (i' : (⟨2, ![n', 128]⟩ : Shape).Idx) (hcol : (i 1).val = (i' 1).val)
    (hx : ∀ k : Fin 64, x (ix2 ⟨(i 0).val, idx2_lt0 i⟩ k) = x' (ix2 ⟨(i' 0).val, idx2_lt0 i'⟩ k))
    (ha : ∀ k : Fin 64, a (ix2 ⟨(i 0).val, idx2_lt0 i⟩ k) = a' (ix2 ⟨(i' 0).val, idx2_lt0 i'⟩ k))
    (hb : ∀ k : Fin 64, b (ix2 ⟨(i 0).val, idx2_lt0 i⟩ k) = b' (ix2 ⟨(i' 0).val, idx2_lt0 i'⟩ k)) :
    result x a b wa0 wa1 wa2 wb0 wb1 wb2 ga ba ma va gb bb mb vb i
      = result x' a' b' wa0 wa1 wa2 wb0 wb1 wb2 ga ba ma va gb bb mb vb i' := by
  unfold result
  rw [hcol, funext hx, funext ha, funext hb]

end Cert.ProjNorm

end
-- ==== Proof.KernelBlock.lean ====
/-
  One block of the kernel, entry by entry.

  At a grid point the kernel holds 5000 rows of the three feature arrays, the six weight matrices and the eight
  normalisation rows, and stores a 5000×128 block. Read at row `r` and column `col`, what it stores is `rowOut` of row `r`
  of the three feature blocks: each matrix-unit product into a zero accumulator is, on the extended reals, the plain sum
  over the 64 contracted entries (the rounding of its operands to bf16 is the identity there); a [1,64] row broadcast over
  the 5000 rows reads its one row; and the concatenation along the columns reads its left operand for `col < 64` and its
  right operand at `col − 64` otherwise.
-/
import proofs.«149860_j51075751084149_1_alg».proof.Proof.Gen.KernelIdeal.Skeleton
import proofs.«149860_j51075751084149_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ProjNorm.Block

open Idealize.ShloMosaic Idealize.ShloMosaic.ValueIdx
open Cert.KernelIdeal Cert.KernelIdeal.Gen

/-- The dimension numbers of the kernel's six products: [5000,64] × [64,64], contracting the 64. -/
abbrev D := dot_S5000x64_S64x64_S5000x64_1_0_0_1_n_n

theorem lhs0 (i : S5000x64.Idx) (q : D.contr.Idx) : (D.lhsIdx i q 0).val = (i 0).val := by
  unfold DotDims.lhsIdx
  rw [dif_neg (show ¬(0 : Fin S5000x64.rank) ∈ D.lhsBatch by decide),
    dif_pos (show (0 : Fin S5000x64.rank) ∈ D.lhsNonContracting by decide)]
  rfl

theorem lhs1 (i : S5000x64.Idx) (q : D.contr.Idx) : (D.lhsIdx i q 1).val = (q ⟨0, by decide⟩).val :=
  D.lhsIdx_val_of_single rfl i q

theorem rhs0 (i : S5000x64.Idx) (q : D.contr.Idx) : (D.rhsIdx i q 0).val = (q ⟨0, by decide⟩).val :=
  D.rhsIdx_val_of_single rfl i q

theorem rhs1 (i : S5000x64.Idx) (q : D.contr.Idx) : (D.rhsIdx i q 1).val = (i 1).val := by
  unfold DotDims.rhsIdx
  rw [dif_neg (show ¬(1 : Fin S64x64.rank) ∈ D.rhsBatch by decide),
    dif_pos (show (1 : Fin S64x64.rank) ∈ D.rhsNonContracting by decide)]
  rfl

/-- A product of a 5000×64 block with a 64×64 matrix into the zero accumulator, at row `r` and column `q`: the sum over
    the contracted index of the products of row `r` with column `q`. -/
theorem mm_apply (l : FVec Ideal S5000x64 .bf16) (w : FVec Ideal S64x64 .bf16) (r : Fin 5000) (q : Fin 64) :
    matmul D none l w (constant (F := Ideal) S5000x64 .f32 0x00000000#32) (ix2 r q)
      = ∑ k : Fin 64, l (ix2 r k) * w (ix2 k q) := by
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 r q) ((contrEquiv1 D 64 rfl rfl).symm k) = ix2 r k := funext fun a => Fin.ext (by
    match a with
    | ⟨0, _⟩ => exact lhs0 _ _
    | ⟨1, _⟩ => exact (lhs1 _ _).trans hk)
  have er : D.rhsIdx (ix2 r q) ((contrEquiv1 D 64 rfl rfl).symm k) = ix2 k q := funext fun a => Fin.ext (by
    match a with
    | ⟨0, _⟩ => exact (rhs0 _ _).trans hk
    | ⟨1, _⟩ => exact rhs1 _ _)
  rw [el, er]

/-- The first projection before rectification: the three products added left to right. -/
theorem lin3_apply (v0 v2 v5 : Vec Ideal S5000x64 .f32) (v8 v11 v14 : Vec Ideal S64x64 .f32) (r : Fin 5000) (q : Fin 64) :
    k0_pay5 (F := Ideal) v0 v2 v5 v8 v11 v14 (ix2 r q)
      = rowLin (fun k => v0 (ix2 r k)) (fun k => v2 (ix2 r k)) (fun k => v5 (ix2 r k)) v8 v11 v14 q := by
  unfold k0_pay5 k0_pay2 k0_pay3 k0_pay4 rowLin
  simp only [shapeCast_self]
  show (matmul D none _ _ _ (ix2 r q) + matmul D none _ _ _ (ix2 r q)) + matmul D none _ _ _ (ix2 r q) = _
  rw [mm_apply, mm_apply, mm_apply]
  rfl

/-- The second projection, as the kernel splits it: its first two products, -/
theorem lin2_apply (v0 v2 : Vec Ideal S5000x64 .f32) (v17 v20 : Vec Ideal S64x64 .f32) (r : Fin 5000) (q : Fin 64) :
    k0_pay6 (F := Ideal) v0 v2 v17 v20 (ix2 r q)
      = (∑ k : Fin 64, v0 (ix2 r k) * v17 (ix2 k q)) + ∑ k : Fin 64, v2 (ix2 r k) * v20 (ix2 k q) := by
  unfold k0_pay6 k0_pay2 k0_pay3
  simp only [shapeCast_self]
  show matmul D none _ _ _ (ix2 r q) + matmul D none _ _ _ (ix2 r q) = _
  rw [mm_apply, mm_apply]
  rfl

/-- and its third. -/
theorem lin1_apply (v5 : Vec Ideal S5000x64 .f32) (v23 : Vec Ideal S64x64 .f32) (r : Fin 5000) (q : Fin 64) :
    k0_pay7 (F := Ideal) v5 v23 (ix2 r q) = ∑ k : Fin 64, v5 (ix2 r k) * v23 (ix2 k q) := by
  unfold k0_pay7 k0_pay4
  simp only [shapeCast_self]
  show matmul D none _ _ _ (ix2 r q) = _
  rw [mm_apply]
  rfl

/-- The left half's epilogue: rectify, then normalise by the four [1,64] rows. -/
theorem normA_apply (h : FVec Ideal S5000x64 .f32) (g mu var b : Vec Ideal S1x64 .f32) (r : Fin 5000) (q : Fin 64) :
    k0_pay8 (F := Ideal) h g mu var b (ix2 r q)
      = norm (fun q => g (ix2 (0 : Fin 1) q)) (fun q => b (ix2 (0 : Fin 1) q)) (fun q => mu (ix2 (0 : Fin 1) q))
          (fun q => var (ix2 (0 : Fin 1) q)) (max (h (ix2 r q)) (Ideal.ofBits .f32 0x00000000#32)) q := by
  unfold k0_pay8 norm
  simp only [shapeCast_self, addf_apply, mulf_apply, subf_apply, maximumf_apply, broadcast_apply]
  rw [broadcastTo_1b_ab_apply, broadcastTo_1b_ab_apply, broadcastTo_1b_ab_apply, broadcastTo_1b_ab_apply]
  rfl

/-- The right half's epilogue: the sum of the two partial projections, normalised. -/
theorem normB_apply (h1 h2 : FVec Ideal S5000x64 .f32) (g mu var b : Vec Ideal S1x64 .f32) (r : Fin 5000) (q : Fin 64) :
    k0_pay9 (F := Ideal) h1 h2 g mu var b (ix2 r q)
      = norm (fun q => g (ix2 (0 : Fin 1) q)) (fun q => b (ix2 (0 : Fin 1) q)) (fun q => mu (ix2 (0 : Fin 1) q))
          (fun q => var (ix2 (0 : Fin 1) q)) (h1 (ix2 r q) + h2 (ix2 r q)) q := by
  unfold k0_pay9 norm
  simp only [shapeCast_self, addf_apply, mulf_apply, subf_apply, broadcast_apply]
  rw [broadcastTo_1b_ab_apply, broadcastTo_1b_ab_apply, broadcastTo_1b_ab_apply, broadcastTo_1b_ab_apply]
  rfl

/-- The two halves side by side: column `col` of the block is column `col % 64` of the left operand when `col / 64 = 0`,
    of the right operand otherwise. -/
theorem cat_apply (A B : FVec Ideal S5000x64 .f32) (y : S5000x128.Idx) :
    k0_pay1 (F := Ideal) A B y
      = if (y 1).val / 64 = 0 then A (ix2 (⟨(y 0).val, (y 0).isLt⟩ : Fin 5000) (colOf (y 1).val))
        else B (ix2 (⟨(y 0).val, (y 0).isLt⟩ : Fin 5000) (colOf (y 1).val)) := by
  have hy1 : (y 1).val < 128 := (y 1).isLt
  let f : Fin 2 → FVec Ideal S5000x64 .f32 := fun n => match n with | ⟨0, _⟩ => A | ⟨1, _⟩ => B
  unfold k0_pay1
  show concatenate S5000x128 1 (List.ofFn fun n : Fin 2 => (⟨S5000x64, f n⟩ : (s : Shape) × (s.Idx → _))) _ y = _
  refine (concatenate_ofFn_apply (t := S5000x128) (s₁ := S5000x64) (1 : Fin 2) f _ rfl 64 rfl y
    ⟨(y 1).val / 64, by omega⟩ rfl (ix2 (⟨(y 0).val, (y 0).isLt⟩ : Fin 5000) (colOf (y 1).val)) rfl
    (fun b hb => by
      match b with
      | ⟨0, _⟩ => rfl
      | ⟨1, _⟩ => exact absurd rfl hb)).trans ?_
  by_cases h : (y 1).val / 64 = 0
  · rw [if_pos h]
    have e : (⟨(y 1).val / 64, by omega⟩ : Fin 2) = ⟨0, by decide⟩ := Fin.ext h
    rw [e]
  · rw [if_neg h]
    have e : (⟨(y 1).val / 64, by omega⟩ : Fin 2) = ⟨1, by decide⟩ := Fin.ext (by show (y 1).val / 64 = 1; omega)
    rw [e]

/-- THE BLOCK: what the kernel's one store holds, entry by entry, is the row function of the loaded blocks — the
    normalisation vectors being the one row of the [1,64] blocks. -/
theorem block_apply (P0 : Vec Ideal S1x64 .f32) (P1 P2 P3 : Vec Ideal S5000x64 .f32) (P4 P5 P6 : Vec Ideal S64x64 .f32)
    (P7 P8 P9 P10 : Vec Ideal S1x64 .f32) (P11 P12 P13 : Vec Ideal S64x64 .f32) (P14 P15 P16 : Vec Ideal S1x64 .f32)
    (y : S5000x128.Idx) :
    k0_pay1 (F := Ideal) (k0_pay8 (k0_pay5 P1 P2 P3 P4 P5 P6) P0 P7 P8 P9)
        (k0_pay9 (k0_pay6 P1 P2 P11 P12) (k0_pay7 P3 P13) P10 P14 P15 P16) y
      = result (n := 5000) P1 P2 P3 P4 P5 P6 P11 P12 P13
          (fun q => P0 (ix2 (0 : Fin 1) q)) (fun q => P9 (ix2 (0 : Fin 1) q)) (fun q => P7 (ix2 (0 : Fin 1) q))
          (fun q => P8 (ix2 (0 : Fin 1) q)) (fun q => P10 (ix2 (0 : Fin 1) q)) (fun q => P16 (ix2 (0 : Fin 1) q))
          (fun q => P14 (ix2 (0 : Fin 1) q)) (fun q => P15 (ix2 (0 : Fin 1) q)) y := by
  rw [cat_apply]
  unfold result rowOut
  by_cases h : (y 1).val / 64 = 0
  · rw [if_pos h, if_pos h, normA_apply, lin3_apply]
  · rw [if_neg h, if_neg h, normB_apply, lin2_apply, lin1_apply]
    rfl

end Cert.ProjNorm.Block

end
-- ==== Proof.KernelWindows.lean ====
/-
  The kernel's windows, read through.

  The grid has 20 points. At point `t` the three feature windows hold rows 5000·t … 5000·t + 4999 of their arrays, the
  result window rows 5000·t … 5000·t + 4999 of the result, and the weight and normalisation windows their whole arrays.
  Stated for an arbitrary array `X` of the window's shape: what the window's block at `t` reads of `X`.
-/
import proofs.«149860_j51075751084149_1_alg».proof.Proof.Gen.KernelIdeal
import Idealize.ShloMosaic.Lib.Pipeline.Value
import Idealize.ShloMosaic.Lib.ValueIdx

noncomputable section

namespace Cert.KernelIdeal.Windows

open Idealize.ShloMosaic Idealize.ShloMosaic.TcCoe Idealize.SL.Sem Idealize.ShloMosaic.ValueIdx
open Cert.KernelIdeal

/-! ## The index maps, decided over the twenty points -/

/-- The three feature windows and the result window move down one block of rows per point. -/
theorem rowIdx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_17.index t (0 : Fin 2) = t.val ∧ win0_17.index t (1 : Fin 2) = 0) :=
  (by decide +kernel : ∀ t : Fin grid0.N, _)

/-- The weight and normalisation windows stay at block (0, 0). -/
theorem fixedIdx3 : ∀ t : Fin cfg0.N, win0_3.index t (0 : Fin 2) = 0 ∧ win0_3.index t (1 : Fin 2) = 0 :=
  (by decide +kernel : ∀ t : Fin grid0.N, _)
theorem fixedIdx4 : ∀ t : Fin cfg0.N, win0_4.index t (0 : Fin 2) = 0 ∧ win0_4.index t (1 : Fin 2) = 0 :=
  (by decide +kernel : ∀ t : Fin grid0.N, _)
theorem fixedIdx5 : ∀ t : Fin cfg0.N, win0_5.index t (0 : Fin 2) = 0 ∧ win0_5.index t (1 : Fin 2) = 0 :=
  (by decide +kernel : ∀ t : Fin grid0.N, _)
theorem fixedIdx6 : ∀ t : Fin cfg0.N, win0_6.index t (0 : Fin 2) = 0 ∧ win0_6.index t (1 : Fin 2) = 0 :=
  (by decide +kernel : ∀ t : Fin grid0.N, _)
theorem fixedIdx7 : ∀ t : Fin cfg0.N, win0_7.index t (0 : Fin 2) = 0 ∧ win0_7.index t (1 : Fin 2) = 0 :=
  (by decide +kernel : ∀ t : Fin grid0.N, _)
theorem fixedIdx8 : ∀ t : Fin cfg0.N, win0_8.index t (0 : Fin 2) = 0 ∧ win0_8.index t (1 : Fin 2) = 0 :=
  (by decide +kernel : ∀ t : Fin grid0.N, _)
theorem fixedIdx9 : ∀ t : Fin cfg0.N, win0_9.index t (0 : Fin 2) = 0 ∧ win0_9.index t (1 : Fin 2) = 0 :=
  (by decide +kernel : ∀ t : Fin grid0.N, _)
theorem fixedIdx10 : ∀ t : Fin cfg0.N, win0_10.index t (0 : Fin 2) = 0 ∧ win0_10.index t (1 : Fin 2) = 0 :=
  (by decide +kernel : ∀ t : Fin grid0.N, _)
theorem fixedIdx11 : ∀ t : Fin cfg0.N, win0_11.index t (0 : Fin 2) = 0 ∧ win0_11.index t (1 : Fin 2) = 0 :=
  (by decide +kernel : ∀ t : Fin grid0.N, _)
theorem fixedIdx12 : ∀ t : Fin cfg0.N, win0_12.index t (0 : Fin 2) = 0 ∧ win0_12.index t (1 : Fin 2) = 0 :=
  (by decide +kernel : ∀ t : Fin grid0.N, _)
theorem fixedIdx13 : ∀ t : Fin cfg0.N, win0_13.index t (0 : Fin 2) = 0 ∧ win0_13.index t (1 : Fin 2) = 0 :=
  (by decide +kernel : ∀ t : Fin grid0.N, _)
theorem fixedIdx14 : ∀ t : Fin cfg0.N, win0_14.index t (0 : Fin 2) = 0 ∧ win0_14.index t (1 : Fin 2) = 0 :=
  (by decide +kernel : ∀ t : Fin grid0.N, _)
theorem fixedIdx15 : ∀ t : Fin cfg0.N, win0_15.index t (0 : Fin 2) = 0 ∧ win0_15.index t (1 : Fin 2) = 0 :=
  (by decide +kernel : ∀ t : Fin grid0.N, _)
theorem fixedIdx16 : ∀ t : Fin cfg0.N, win0_16.index t (0 : Fin 2) = 0 ∧ win0_16.index t (1 : Fin 2) = 0 :=
  (by decide +kernel : ∀ t : Fin grid0.N, _)

/-! ## Rows 5000·t … of a feature array -/

theorem read_rows0 (t : Fin cfg0.N) (X : S100000x64.Idx → EReal) (r : Fin 5000) (k : Fin 64) (R : Fin 100000)
    (hR : R.val = 5000 * t.val + r.val) :
    (((cfg0.win 0).blk t).view.read (Elt Ideal) X : Vec Ideal S5000x64 .f32) (ix2 r k) = X (ix2 R k) := by
  obtain ⟨h0, h1⟩ := (rowIdx t).1
  show X (((cfg0.win 0).blk t).view.emb (ix2 r k)) = X (ix2 R k)
  refine congrArg X (funext fun a => Fin.ext ?_)
  match a with
  | ⟨0, _⟩ => show win0_0.index t (0 : Fin 2) * 5000 + 1 * r.val = R.val; rw [h0, hR]; omega
  | ⟨1, _⟩ => show win0_0.index t (1 : Fin 2) * 64 + 1 * k.val = k.val; rw [h1]; omega

theorem read_rows1 (t : Fin cfg0.N) (X : S100000x64.Idx → EReal) (r : Fin 5000) (k : Fin 64) (R : Fin 100000)
    (hR : R.val = 5000 * t.val + r.val) :
    (((cfg0.win 1).blk t).view.read (Elt Ideal) X : Vec Ideal S5000x64 .f32) (ix2 r k) = X (ix2 R k) := by
  obtain ⟨h0, h1⟩ := (rowIdx t).2.1
  show X (((cfg0.win 1).blk t).view.emb (ix2 r k)) = X (ix2 R k)
  refine congrArg X (funext fun a => Fin.ext ?_)
  match a with
  | ⟨0, _⟩ => show win0_1.index t (0 : Fin 2) * 5000 + 1 * r.val = R.val; rw [h0, hR]; omega
  | ⟨1, _⟩ => show win0_1.index t (1 : Fin 2) * 64 + 1 * k.val = k.val; rw [h1]; omega

theorem read_rows2 (t : Fin cfg0.N) (X : S100000x64.Idx → EReal) (r : Fin 5000) (k : Fin 64) (R : Fin 100000)
    (hR : R.val = 5000 * t.val + r.val) :
    (((cfg0.win 2).blk t).view.read (Elt Ideal) X : Vec Ideal S5000x64 .f32) (ix2 r k) = X (ix2 R k) := by
  obtain ⟨h0, h1⟩ := (rowIdx t).2.2.1
  show X (((cfg0.win 2).blk t).view.emb (ix2 r k)) = X (ix2 R k)
  refine congrArg X (funext fun a => Fin.ext ?_)
  match a with
  | ⟨0, _⟩ => show win0_2.index t (0 : Fin 2) * 5000 + 1 * r.val = R.val; rw [h0, hR]; omega
  | ⟨1, _⟩ => show win0_2.index t (1 : Fin 2) * 64 + 1 * k.val = k.val; rw [h1]; omega

/-! ## A whole weight matrix, a whole normalisation row -/

theorem read_whole3 (t : Fin cfg0.N) (X : S64x64.Idx → EReal) :
    (((cfg0.win 3).blk t).view.read (Elt Ideal) X : Vec Ideal S64x64 .f32) = X := by
  obtain ⟨h0, h1⟩ := fixedIdx3 t
  refine funext fun (j : S64x64.Idx) => ?_
  show X (((cfg0.win 3).blk t).view.emb j) = X j
  refine congrArg X (funext fun a => Fin.ext ?_)
  match a with
  | ⟨0, _⟩ => show win0_3.index t (0 : Fin 2) * 64 + 1 * (j 0).val = (j 0).val; rw [h0]; omega
  | ⟨1, _⟩ => show win0_3.index t (1 : Fin 2) * 64 + 1 * (j 1).val = (j 1).val; rw [h1]; omega

theorem read_whole4 (t : Fin cfg0.N) (X : S64x64.Idx → EReal) :
    (((cfg0.win 4).blk t).view.read (Elt Ideal) X : Vec Ideal S64x64 .f32) = X := by
  obtain ⟨h0, h1⟩ := fixedIdx4 t
  refine funext fun (j : S64x64.Idx) => ?_
  show X (((cfg0.win 4).blk t).view.emb j) = X j
  refine congrArg X (funext fun a => Fin.ext ?_)
  match a with
  | ⟨0, _⟩ => show win0_4.index t (0 : Fin 2) * 64 + 1 * (j 0).val = (j 0).val; rw [h0]; omega
  | ⟨1, _⟩ => show win0_4.index t (1 : Fin 2) * 64 + 1 * (j 1).val = (j 1).val; rw [h1]; omega

theorem read_whole5 (t : Fin cfg0.N) (X : S64x64.Idx → EReal) :
    (((cfg0.win 5).blk t).view.read (Elt Ideal) X : Vec Ideal S64x64 .f32) = X := by
  obtain ⟨h0, h1⟩ := fixedIdx5 t
  refine funext fun (j : S64x64.Idx) => ?_
  show X (((cfg0.win 5).blk t).view.emb j) = X j
  refine congrArg X (funext fun a => Fin.ext ?_)
  match a with
  | ⟨0, _⟩ => show win0_5.index t (0 : Fin 2) * 64 + 1 * (j 0).val = (j 0).val; rw [h0]; omega
  | ⟨1, _⟩ => show win0_5.index t (1 : Fin 2) * 64 + 1 * (j 1).val = (j 1).val; rw [h1]; omega

theorem read_whole6 (t : Fin cfg0.N) (X : S64x64.Idx → EReal) :
    (((cfg0.win 6).blk t).view.read (Elt Ideal) X : Vec Ideal S64x64 .f32) = X := by
  obtain ⟨h0, h1⟩ := fixedIdx6 t
  refine funext fun (j : S64x64.Idx) => ?_
  show X (((cfg0.win 6).blk t).view.emb j) = X j
  refine congrArg X (funext fun a => Fin.ext ?_)
  match a with
  | ⟨0, _⟩ => show win0_6.index t (0 : Fin 2) * 64 + 1 * (j 0).val = (j 0).val; rw [h0]; omega
  | ⟨1, _⟩ => show win0_6.index t (1 : Fin 2) * 64 + 1 * (j 1).val = (j 1).val; rw [h1]; omega

theorem read_whole7 (t : Fin cfg0.N) (X : S64x64.Idx → EReal) :
    (((cfg0.win 7).blk t).view.read (Elt Ideal) X : Vec Ideal S64x64 .f32) = X := by
  obtain ⟨h0, h1⟩ := fixedIdx7 t
  refine funext fun (j : S64x64.Idx) => ?_
  show X (((cfg0.win 7).blk t).view.emb j) = X j
  refine congrArg X (funext fun a => Fin.ext ?_)
  match a with
  | ⟨0, _⟩ => show win0_7.index t (0 : Fin 2) * 64 + 1 * (j 0).val = (j 0).val; rw [h0]; omega
  | ⟨1, _⟩ => show win0_7.index t (1 : Fin 2) * 64 + 1 * (j 1).val = (j 1).val; rw [h1]; omega

theorem read_whole8 (t : Fin cfg0.N) (X : S64x64.Idx → EReal) :
    (((cfg0.win 8).blk t).view.read (Elt Ideal) X : Vec Ideal S64x64 .f32) = X := by
  obtain ⟨h0, h1⟩ := fixedIdx8 t
  refine funext fun (j : S64x64.Idx) => ?_
  show X (((cfg0.win 8).blk t).view.emb j) = X j
  refine congrArg X (funext fun a => Fin.ext ?_)
  match a with
  | ⟨0, _⟩ => show win0_8.index t (0 : Fin 2) * 64 + 1 * (j 0).val = (j 0).val; rw [h0]; omega
  | ⟨1, _⟩ => show win0_8.index t (1 : Fin 2) * 64 + 1 * (j 1).val = (j 1).val; rw [h1]; omega

theorem read_whole9 (t : Fin cfg0.N) (X : S1x64.Idx → EReal) :
    (((cfg0.win 9).blk t).view.read (Elt Ideal) X : Vec Ideal S1x64 .f32) = X := by
  obtain ⟨h0, h1⟩ := fixedIdx9 t
  refine funext fun (j : S1x64.Idx) => ?_
  show X (((cfg0.win 9).blk t).view.emb j) = X j
  refine congrArg X (funext fun a => Fin.ext ?_)
  match a with
  | ⟨0, _⟩ => show win0_9.index t (0 : Fin 2) * 1 + 1 * (j 0).val = (j 0).val; rw [h0]; omega
  | ⟨1, _⟩ => show win0_9.index t (1 : Fin 2) * 64 + 1 * (j 1).val = (j 1).val; rw [h1]; omega

theorem read_whole10 (t : Fin cfg0.N) (X : S1x64.Idx → EReal) :
    (((cfg0.win 10).blk t).view.read (Elt Ideal) X : Vec Ideal S1x64 .f32) = X := by
  obtain ⟨h0, h1⟩ := fixedIdx10 t
  refine funext fun (j : S1x64.Idx) => ?_
  show X (((cfg0.win 10).blk t).view.emb j) = X j
  refine congrArg X (funext fun a => Fin.ext ?_)
  match a with
  | ⟨0, _⟩ => show win0_10.index t (0 : Fin 2) * 1 + 1 * (j 0).val = (j 0).val; rw [h0]; omega
  | ⟨1, _⟩ => show win0_10.index t (1 : Fin 2) * 64 + 1 * (j 1).val = (j 1).val; rw [h1]; omega

theorem read_whole11 (t : Fin cfg0.N) (X : S1x64.Idx → EReal) :
    (((cfg0.win 11).blk t).view.read (Elt Ideal) X : Vec Ideal S1x64 .f32) = X := by
  obtain ⟨h0, h1⟩ := fixedIdx11 t
  refine funext fun (j : S1x64.Idx) => ?_
  show X (((cfg0.win 11).blk t).view.emb j) = X j
  refine congrArg X (funext fun a => Fin.ext ?_)
  match a with
  | ⟨0, _⟩ => show win0_11.index t (0 : Fin 2) * 1 + 1 * (j 0).val = (j 0).val; rw [h0]; omega
  | ⟨1, _⟩ => show win0_11.index t (1 : Fin 2) * 64 + 1 * (j 1).val = (j 1).val; rw [h1]; omega

theorem read_whole12 (t : Fin cfg0.N) (X : S1x64.Idx → EReal) :
    (((cfg0.win 12).blk t).view.read (Elt Ideal) X : Vec Ideal S1x64 .f32) = X := by
  obtain ⟨h0, h1⟩ := fixedIdx12 t
  refine funext fun (j : S1x64.Idx) => ?_
  show X (((cfg0.win 12).blk t).view.emb j) = X j
  refine congrArg X (funext fun a => Fin.ext ?_)
  match a with
  | ⟨0, _⟩ => show win0_12.index t (0 : Fin 2) * 1 + 1 * (j 0).val = (j 0).val; rw [h0]; omega
  | ⟨1, _⟩ => show win0_12.index t (1 : Fin 2) * 64 + 1 * (j 1).val = (j 1).val; rw [h1]; omega

theorem read_whole13 (t : Fin cfg0.N) (X : S1x64.Idx → EReal) :
    (((cfg0.win 13).blk t).view.read (Elt Ideal) X : Vec Ideal S1x64 .f32) = X := by
  obtain ⟨h0, h1⟩ := fixedIdx13 t
  refine funext fun (j : S1x64.Idx) => ?_
  show X (((cfg0.win 13).blk t).view.emb j) = X j
  refine congrArg X (funext fun a => Fin.ext ?_)
  match a with
  | ⟨0, _⟩ => show win0_13.index t (0 : Fin 2) * 1 + 1 * (j 0).val = (j 0).val; rw [h0]; omega
  | ⟨1, _⟩ => show win0_13.index t (1 : Fin 2) * 64 + 1 * (j 1).val = (j 1).val; rw [h1]; omega

theorem read_whole14 (t : Fin cfg0.N) (X : S1x64.Idx → EReal) :
    (((cfg0.win 14).blk t).view.read (Elt Ideal) X : Vec Ideal S1x64 .f32) = X := by
  obtain ⟨h0, h1⟩ := fixedIdx14 t
  refine funext fun (j : S1x64.Idx) => ?_
  show X (((cfg0.win 14).blk t).view.emb j) = X j
  refine congrArg X (funext fun a => Fin.ext ?_)
  match a with
  | ⟨0, _⟩ => show win0_14.index t (0 : Fin 2) * 1 + 1 * (j 0).val = (j 0).val; rw [h0]; omega
  | ⟨1, _⟩ => show win0_14.index t (1 : Fin 2) * 64 + 1 * (j 1).val = (j 1).val; rw [h1]; omega

theorem read_whole15 (t : Fin cfg0.N) (X : S1x64.Idx → EReal) :
    (((cfg0.win 15).blk t).view.read (Elt Ideal) X : Vec Ideal S1x64 .f32) = X := by
  obtain ⟨h0, h1⟩ := fixedIdx15 t
  refine funext fun (j : S1x64.Idx) => ?_
  show X (((cfg0.win 15).blk t).view.emb j) = X j
  refine congrArg X (funext fun a => Fin.ext ?_)
  match a with
  | ⟨0, _⟩ => show win0_15.index t (0 : Fin 2) * 1 + 1 * (j 0).val = (j 0).val; rw [h0]; omega
  | ⟨1, _⟩ => show win0_15.index t (1 : Fin 2) * 64 + 1 * (j 1).val = (j 1).val; rw [h1]; omega

theorem read_whole16 (t : Fin cfg0.N) (X : S1x64.Idx → EReal) :
    (((cfg0.win 16).blk t).view.read (Elt Ideal) X : Vec Ideal S1x64 .f32) = X := by
  obtain ⟨h0, h1⟩ := fixedIdx16 t
  refine funext fun (j : S1x64.Idx) => ?_
  show X (((cfg0.win 16).blk t).view.emb j) = X j
  refine congrArg X (funext fun a => Fin.ext ?_)
  match a with
  | ⟨0, _⟩ => show win0_16.index t (0 : Fin 2) * 1 + 1 * (j 0).val = (j 0).val; rw [h0]; omega
  | ⟨1, _⟩ => show win0_16.index t (1 : Fin 2) * 64 + 1 * (j 1).val = (j 1).val; rw [h1]; omega

end Cert.KernelIdeal.Windows

end
-- ==== Proof.KernelArray.lean ====
/-
  From the blocks to the array.

  The grid has 20 points; point `t` reads rows 5000·t … 5000·t + 4999 of the features and of the two propagated feature
  arrays, the six weight matrices and the eight [1,64] normalisation rows whole, and writes back rows
  5000·t … 5000·t + 4999 of the 100000×128 result. By the block lemma what it writes back is the row function of its
  blocks, and a row of the result reads only that row of the features: so point `t` writes block `t` of ONE function of
  the arrays the call finds (`G`). The twenty blocks cover the result (row `r` lies in block `r / 5000`), hence after the run
  the result array is `G`.
-/
import proofs.«149860_j51075751084149_1_alg».proof.Proof.PatchedKernelIdealValue
import proofs.«149860_j51075751084149_1_alg».proof.Proof.KernelBlock
import proofs.«149860_j51075751084149_1_alg».proof.Proof.KernelWindows
import Idealize.ShloMosaic.Lib.Pipeline.Value

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.KernelIdeal.ValueP Cert.KernelIdeal.Windows
open Cert.ProjNorm

variable (m : (ℓ : Loc nD τ sig) → Buf (Elt Ideal) ℓ) (ρ : Dev nD → PrngReg)

theorem hz : (![0, 0] : Fin 2 → Nat) = fun _ => 0 := funext fun a => by fin_cases a <;> rfl

/-! ## Each window's block is the window read through the array the call finds -/

theorem rows0 (c : Dev nD) (t : Fin cfg0.N) (r : Fin 5000) (k : Fin 64) (R : Fin 100000)
    (hR : R.val = 5000 * t.val + r.val) :
    (iblk m c 0 t : Vec Ideal S5000x64 .f32) (ix2 r k) = (V m c main_arg0 : S100000x64.Idx → EReal) (ix2 R k) :=
  read_rows0 t (V m c main_arg0) r k R hR

theorem rows1 (c : Dev nD) (t : Fin cfg0.N) (r : Fin 5000) (k : Fin 64) (R : Fin 100000)
    (hR : R.val = 5000 * t.val + r.val) :
    (iblk m c 1 t : Vec Ideal S5000x64 .f32) (ix2 r k) = (V m c main_v12 : S100000x64.Idx → EReal) (ix2 R k) :=
  read_rows1 t (V m c main_v12) r k R hR

theorem rows2 (c : Dev nD) (t : Fin cfg0.N) (r : Fin 5000) (k : Fin 64) (R : Fin 100000)
    (hR : R.val = 5000 * t.val + r.val) :
    (iblk m c 2 t : Vec Ideal S5000x64 .f32) (ix2 r k) = (V m c main_v25 : S100000x64.Idx → EReal) (ix2 R k) :=
  read_rows2 t (V m c main_v25) r k R hR

theorem whole3 (c : Dev nD) (t : Fin cfg0.N) : (iblk m c 3 t : Vec Ideal S64x64 .f32) = (V m c main_v33 : S64x64.Idx → EReal) :=
  read_whole3 t (V m c main_v33)

theorem whole4 (c : Dev nD) (t : Fin cfg0.N) : (iblk m c 4 t : Vec Ideal S64x64 .f32) = (V m c main_v43 : S64x64.Idx → EReal) :=
  read_whole4 t (V m c main_v43)

theorem whole5 (c : Dev nD) (t : Fin cfg0.N) : (iblk m c 5 t : Vec Ideal S64x64 .f32) = (V m c main_v45 : S64x64.Idx → EReal) :=
  read_whole5 t (V m c main_v45)

theorem whole6 (c : Dev nD) (t : Fin cfg0.N) : (iblk m c 6 t : Vec Ideal S64x64 .f32) = (V m c main_v41 : S64x64.Idx → EReal) :=
  read_whole6 t (V m c main_v41)

theorem whole7 (c : Dev nD) (t : Fin cfg0.N) : (iblk m c 7 t : Vec Ideal S64x64 .f32) = (V m c main_v47 : S64x64.Idx → EReal) :=
  read_whole7 t (V m c main_v47)

theorem whole8 (c : Dev nD) (t : Fin cfg0.N) : (iblk m c 8 t : Vec Ideal S64x64 .f32) = (V m c main_v49 : S64x64.Idx → EReal) :=
  read_whole8 t (V m c main_v49)

theorem whole9 (c : Dev nD) (t : Fin cfg0.N) : (iblk m c 9 t : Vec Ideal S1x64 .f32) = (V m c main_v50 : S1x64.Idx → EReal) :=
  read_whole9 t (V m c main_v50)

theorem whole10 (c : Dev nD) (t : Fin cfg0.N) : (iblk m c 10 t : Vec Ideal S1x64 .f32) = (V m c main_v51 : S1x64.Idx → EReal) :=
  read_whole10 t (V m c main_v51)

theorem whole11 (c : Dev nD) (t : Fin cfg0.N) : (iblk m c 11 t : Vec Ideal S1x64 .f32) = (V m c main_v52 : S1x64.Idx → EReal) :=
  read_whole11 t (V m c main_v52)

theorem whole12 (c : Dev nD) (t : Fin cfg0.N) : (iblk m c 12 t : Vec Ideal S1x64 .f32) = (V m c main_v53 : S1x64.Idx → EReal) :=
  read_whole12 t (V m c main_v53)

theorem whole13 (c : Dev nD) (t : Fin cfg0.N) : (iblk m c 13 t : Vec Ideal S1x64 .f32) = (V m c main_v54 : S1x64.Idx → EReal) :=
  read_whole13 t (V m c main_v54)

theorem whole14 (c : Dev nD) (t : Fin cfg0.N) : (iblk m c 14 t : Vec Ideal S1x64 .f32) = (V m c main_v55 : S1x64.Idx → EReal) :=
  read_whole14 t (V m c main_v55)

theorem whole15 (c : Dev nD) (t : Fin cfg0.N) : (iblk m c 15 t : Vec Ideal S1x64 .f32) = (V m c main_v56 : S1x64.Idx → EReal) :=
  read_whole15 t (V m c main_v56)

theorem whole16 (c : Dev nD) (t : Fin cfg0.N) : (iblk m c 16 t : Vec Ideal S1x64 .f32) = (V m c main_v57 : S1x64.Idx → EReal) :=
  read_whole16 t (V m c main_v57)

/-! ## The result as one function of the arrays the call finds -/

/-- The row function of the features as launched, of the propagated features and the weights as the host operations
    before the call leave them, and of the one row of each reshaped normalisation vector. -/
abbrev G (c : Dev nD) : S100000x128.Idx → EReal :=
  result (n := 100000) (V m c main_arg0 : S100000x64.Idx → EReal) (V m c main_v12 : S100000x64.Idx → EReal) (V m c main_v25 : S100000x64.Idx → EReal)
    (V m c main_v33 : S64x64.Idx → EReal) (V m c main_v43 : S64x64.Idx → EReal) (V m c main_v45 : S64x64.Idx → EReal)
    (V m c main_v41 : S64x64.Idx → EReal) (V m c main_v47 : S64x64.Idx → EReal) (V m c main_v49 : S64x64.Idx → EReal)
    (fun q : Fin 64 => (V m c main_v50 : S1x64.Idx → EReal) (ix2 (0 : Fin 1) q)) (fun q : Fin 64 => (V m c main_v51 : S1x64.Idx → EReal) (ix2 (0 : Fin 1) q))
    (fun q : Fin 64 => (V m c main_v52 : S1x64.Idx → EReal) (ix2 (0 : Fin 1) q)) (fun q : Fin 64 => (V m c main_v53 : S1x64.Idx → EReal) (ix2 (0 : Fin 1) q))
    (fun q : Fin 64 => (V m c main_v54 : S1x64.Idx → EReal) (ix2 (0 : Fin 1) q)) (fun q : Fin 64 => (V m c main_v55 : S1x64.Idx → EReal) (ix2 (0 : Fin 1) q))
    (fun q : Fin 64 => (V m c main_v56 : S1x64.Idx → EReal) (ix2 (0 : Fin 1) q)) (fun q : Fin 64 => (V m c main_v57 : S1x64.Idx → EReal) (ix2 (0 : Fin 1) q))

/-- WHAT POINT `t` WRITES BACK is block `t` of `G`. -/
theorem flushed_eq (c : Dev nD) (t : Fin cfg0.N) :
    (dats m 0 c).flushed 17 t = ((cfg0.win 17).blk t).view.read (Elt Ideal) (G m c) := by
  obtain ⟨h0, h1⟩ := (rowIdx t).2.2.2
  rw [flushed17]
  unfold out0_17
  rw [View.canon_unit_zero hz]
  simp only [View.ld_unit_zero (S := S5000x64) hz, View.ld_unit_zero (S := S64x64) hz, View.ld_unit_zero (S := S1x64) hz]
  funext j
  rw [View.read_apply]
  show k0_pay1 (k0_pay8 (k0_pay5 (iblk m c 0 t : Vec Ideal S5000x64 .f32) (iblk m c 1 t : Vec Ideal S5000x64 .f32) (iblk m c 2 t : Vec Ideal S5000x64 .f32) (iblk m c 3 t : Vec Ideal S64x64 .f32) (iblk m c 4 t : Vec Ideal S64x64 .f32) (iblk m c 5 t : Vec Ideal S64x64 .f32))
        (iblk m c 9 t : Vec Ideal S1x64 .f32) (iblk m c 11 t : Vec Ideal S1x64 .f32) (iblk m c 12 t : Vec Ideal S1x64 .f32) (iblk m c 10 t : Vec Ideal S1x64 .f32))
      (k0_pay9 (k0_pay6 (iblk m c 0 t : Vec Ideal S5000x64 .f32) (iblk m c 1 t : Vec Ideal S5000x64 .f32) (iblk m c 6 t : Vec Ideal S64x64 .f32) (iblk m c 7 t : Vec Ideal S64x64 .f32)) (k0_pay7 (iblk m c 2 t : Vec Ideal S5000x64 .f32) (iblk m c 8 t : Vec Ideal S64x64 .f32))
        (iblk m c 13 t : Vec Ideal S1x64 .f32) (iblk m c 15 t : Vec Ideal S1x64 .f32) (iblk m c 16 t : Vec Ideal S1x64 .f32) (iblk m c 14 t : Vec Ideal S1x64 .f32)) j
    = G m c (((cfg0.win 17).blk t).view.emb j)
  rw [Block.block_apply (iblk m c 9 t : Vec Ideal S1x64 .f32) (iblk m c 0 t : Vec Ideal S5000x64 .f32) (iblk m c 1 t : Vec Ideal S5000x64 .f32) (iblk m c 2 t : Vec Ideal S5000x64 .f32) (iblk m c 3 t : Vec Ideal S64x64 .f32) (iblk m c 4 t : Vec Ideal S64x64 .f32) (iblk m c 5 t : Vec Ideal S64x64 .f32)
    (iblk m c 11 t : Vec Ideal S1x64 .f32) (iblk m c 12 t : Vec Ideal S1x64 .f32) (iblk m c 10 t : Vec Ideal S1x64 .f32) (iblk m c 13 t : Vec Ideal S1x64 .f32) (iblk m c 6 t : Vec Ideal S64x64 .f32) (iblk m c 7 t : Vec Ideal S64x64 .f32) (iblk m c 8 t : Vec Ideal S64x64 .f32)
    (iblk m c 15 t : Vec Ideal S1x64 .f32) (iblk m c 16 t : Vec Ideal S1x64 .f32) (iblk m c 14 t : Vec Ideal S1x64 .f32) j]
  rw [whole3 m c t, whole4 m c t, whole5 m c t, whole6 m c t, whole7 m c t, whole8 m c t, whole9 m c t, whole10 m c t,
    whole11 m c t, whole12 m c t, whole13 m c t, whole14 m c t, whole15 m c t, whole16 m c t]
  have hj0 : (j 0).val < 5000 := (j 0).isLt
  have hrow : ((((cfg0.win 17).blk t).view.emb j) 0).val = 5000 * t.val + (j 0).val := by
    show win0_17.index t (0 : Fin 2) * 5000 + 1 * (j 0).val = _
    rw [h0]; omega
  have hcol : (j 1).val = ((((cfg0.win 17).blk t).view.emb j) 1).val := by
    show _ = win0_17.index t (1 : Fin 2) * 128 + 1 * (j 1).val
    rw [h1]; omega
  exact result_rows (n := 5000) (n' := 100000) _ _ _ _ _ _ _ _ _ _ _ _ _ _ _ _ _ _ _ _ j (((cfg0.win 17).blk t).view.emb j) hcol
    (fun k => rows0 m c t _ k _ hrow) (fun k => rows1 m c t _ k _ hrow) (fun k => rows2 m c t _ k _ hrow)

/-- An index of the result is in point `t`'s block iff each coordinate is in the block's range on its axis. -/
theorem mem_blk (t : Fin cfg0.N) (i : S100000x128.Idx) :
    i ∈ ((cfg0.win 17).blk t).view.set ↔ ∀ a : Fin 2, win0_17.index t a * S5000x128.size a ≤ (i a).val
      ∧ (i a).val < win0_17.index t a * S5000x128.size a + S5000x128.size a := by
  show i ∈ ((View.whole main_v58).slice (win0_17.rect t)).set ↔ _
  rw [View.set_slice_whole, Rect.mem_set_unit]
  exact Iff.rfl

/-- Every index of the result lies in the block of the point its row names. -/
theorem cover (i : S100000x128.Idx) :
    ∃ t : Fin cfg0.N, (cfg0.win 17).flush t = true ∧ i ∈ ((cfg0.win 17).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨h0, h1⟩ := (rowIdx ⟨(i 0).val / 5000, ht⟩).2.2.2
  refine ⟨⟨(i 0).val / 5000, ht⟩, flush0_17 _, ?_⟩
  rw [mem_blk]
  intro a
  match a with
  | ⟨0, _⟩ =>
    show win0_17.index ⟨(i 0).val / 5000, ht⟩ (0 : Fin 2) * 5000 ≤ (i 0).val
      ∧ (i 0).val < win0_17.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win0_17.index ⟨(i 0).val / 5000, ht⟩ (1 : Fin 2) * 128 ≤ (i 1).val
      ∧ (i 1).val < win0_17.index ⟨(i 0).val / 5000, ht⟩ (1 : Fin 2) * 128 + 128
    rw [h1]; omega

/-- THE RESULT ARRAY after the run is `G`. -/
theorem final (c : Dev nD) : (dats m 0 c).arrAt 17 cfg0.N = G m c :=
  (dats m 0 c).arrAt_eq_of_cover 17 (G m c) (fun t _ => flushed_eq m c t) cover

/-- The run, read: the result at `G`, the arguments unchanged. -/
theorem run : θ_run defs (onTc (τ := τ) (main (F := Ideal))) ⟨m, fun _ => 0, ρ⟩ fun r => ∀ c : Dev nD,
      r.2.mem ((c : Thread nD τ).loc main_v58) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelIdeal.ArrayValue

end
-- ==== Proof.HostArrays.lean ====
/-
  The arrays the kernel's call finds, as the host operations before it leave them.

  Before the call the kernel's program propagates the features once and twice along the edges (a gather of the source
  rows, scaled by the edge values, scatter-added at the destination rows), adds the first three slices of each weight
  tensor, takes the last two slices as they are, and reshapes the eight normalisation vectors from [64] to [1,64]. The
  reference performs the very same operations on the same arguments, so each of these arrays IS the corresponding
  stage of the reference (its propagated features, its summed and sliced weights) — the same term, never opened —, and
  a reshaped vector read at (0, q) is the vector at q.
-/
import proofs.«149860_j51075751084149_1_alg».proof.Proof.PatchedKernelIdealFrame
import proofs.«149860_j51075751084149_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.HostArrays

open Idealize.ShloMosaic Idealize.ShloMosaic.TcCoe Idealize.SL.Sem Idealize.ShloMosaic.StableHlo
open Idealize.ShloMosaic.ValueIdx
open Cert.KernelIdeal Cert.KernelIdeal.Gen Cert.KernelIdeal.GenP

variable (m : (ℓ : Loc nD τ sig) → Buf (Elt Ideal) ℓ)

/-! ## The propagated features and the weights: the reference's own stages -/

set_option maxHeartbeats 8000000 in
/-- The features propagated once along the edges. -/
theorem prop1 (c : Dev nD) : (V m c main_v12 : S100000x64.Idx → EReal) = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v12) = _
  after_results_simp
  rfl

set_option maxHeartbeats 8000000 in
/-- The features propagated twice. -/
theorem prop2 (c : Dev nD) : (V m c main_v25 : S100000x64.Idx → EReal) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v25) = _
  after_results_simp
  rfl

set_option maxHeartbeats 8000000 in
/-- The first weight tensor's slices 0, 1, 2 added. -/
theorem wa_sum (c : Dev nD) : (V m c main_v33 : S64x64.Idx → EReal) = Cert.ReferenceIdeal.Read.val_main_v33 (F := Ideal) (m ((c : Thread nD τ).loc main_arg4)) := by
  show StableHlo.after hostOps0 (fun b => m (c, b)) (Proc.devRef .tc main_v33) = _
  after_results_simp
  rfl

set_option maxHeartbeats 8000000 in
/-- The first weight tensor's slice 3. -/
theorem wa_3 (c : Dev nD) : (V m c main_v43 : S64x64.Idx → EReal) = Cert.ReferenceIdeal.Read.val_main_v45 (F := Ideal) (m ((c : Thread nD τ).loc main_arg4)) := by
  show StableHlo.after hostOps0 (fun b => m (c, b)) (Proc.devRef .tc main_v43) = _
  after_results_simp
  rfl

set_option maxHeartbeats 8000000 in
/-- The first weight tensor's slice 4. -/
theorem wa_4 (c : Dev nD) : (V m c main_v45 : S64x64.Idx → EReal) = Cert.ReferenceIdeal.Read.val_main_v53 (F := Ideal) (m ((c : Thread nD τ).loc main_arg4)) := by
  show StableHlo.after hostOps0 (fun b => m (c, b)) (Proc.devRef .tc main_v45) = _
  after_results_simp
  rfl

set_option maxHeartbeats 8000000 in
/-- The second weight tensor's slices 0, 1, 2 added. -/
theorem wb_sum (c : Dev nD) : (V m c main_v41 : S64x64.Idx → EReal) = Cert.ReferenceIdeal.Read.val_main_v42 (F := Ideal) (m ((c : Thread nD τ).loc main_arg5)) := by
  show StableHlo.after hostOps0 (fun b => m (c, b)) (Proc.devRef .tc main_v41) = _
  after_results_simp
  rfl

set_option maxHeartbeats 8000000 in
/-- The second weight tensor's slice 3. -/
theorem wb_3 (c : Dev nD) : (V m c main_v47 : S64x64.Idx → EReal) = Cert.ReferenceIdeal.Read.val_main_v49 (F := Ideal) (m ((c : Thread nD τ).loc main_arg5)) := by
  show StableHlo.after hostOps0 (fun b => m (c, b)) (Proc.devRef .tc main_v47) = _
  after_results_simp
  rfl

set_option maxHeartbeats 8000000 in
/-- The second weight tensor's slice 4. -/
theorem wb_4 (c : Dev nD) : (V m c main_v49 : S64x64.Idx → EReal) = Cert.ReferenceIdeal.Read.val_main_v57 (F := Ideal) (m ((c : Thread nD τ).loc main_arg5)) := by
  show StableHlo.after hostOps0 (fun b => m (c, b)) (Proc.devRef .tc main_v49) = _
  after_results_simp
  rfl

/-! ## The normalisation vectors, reshaped to one row -/

set_option maxHeartbeats 8000000 in
/-- The first scale vector as one row. -/
theorem gamma_a (c : Dev nD) :
    (fun q : Fin 64 => (V m c main_v50 : S1x64.Idx → EReal) (ix2 (0 : Fin 1) q))
      = fun q : Fin 64 => (m ((c : Thread nD τ).loc main_arg6) : S64.Idx → EReal) (ix1 q) := by
  have e : (V m c main_v50 : S1x64.Idx → EReal)
      = shapeCast S1x64 (m ((c : Thread nD τ).loc main_arg6) : S64.Idx → EReal) shapeCasts_S64_S1x64 := by
    show StableHlo.after hostOps0 (fun b => m (c, b)) (Proc.devRef .tc main_v50) = _
    after_results_simp
    rfl
  funext q
  rw [e]
  exact shapeCast_a_1a_apply _ _ (0 : Fin 1) q

set_option maxHeartbeats 8000000 in
/-- The first shift vector as one row. -/
theorem beta_a (c : Dev nD) :
    (fun q : Fin 64 => (V m c main_v51 : S1x64.Idx → EReal) (ix2 (0 : Fin 1) q))
      = fun q : Fin 64 => (m ((c : Thread nD τ).loc main_arg7) : S64.Idx → EReal) (ix1 q) := by
  have e : (V m c main_v51 : S1x64.Idx → EReal)
      = shapeCast S1x64 (m ((c : Thread nD τ).loc main_arg7) : S64.Idx → EReal) shapeCasts_S64_S1x64 := by
    show StableHlo.after hostOps0 (fun b => m (c, b)) (Proc.devRef .tc main_v51) = _
    after_results_simp
    rfl
  funext q
  rw [e]
  exact shapeCast_a_1a_apply _ _ (0 : Fin 1) q

set_option maxHeartbeats 8000000 in
/-- The first mean vector as one row. -/
theorem mean_a (c : Dev nD) :
    (fun q : Fin 64 => (V m c main_v52 : S1x64.Idx → EReal) (ix2 (0 : Fin 1) q))
      = fun q : Fin 64 => (m ((c : Thread nD τ).loc main_arg8) : S64.Idx → EReal) (ix1 q) := by
  have e : (V m c main_v52 : S1x64.Idx → EReal)
      = shapeCast S1x64 (m ((c : Thread nD τ).loc main_arg8) : S64.Idx → EReal) shapeCasts_S64_S1x64 := by
    show StableHlo.after hostOps0 (fun b => m (c, b)) (Proc.devRef .tc main_v52) = _
    after_results_simp
    rfl
  funext q
  rw [e]
  exact shapeCast_a_1a_apply _ _ (0 : Fin 1) q

set_option maxHeartbeats 8000000 in
/-- The first variance vector as one row. -/
theorem var_a (c : Dev nD) :
    (fun q : Fin 64 => (V m c main_v53 : S1x64.Idx → EReal) (ix2 (0 : Fin 1) q))
      = fun q : Fin 64 => (m ((c : Thread nD τ).loc main_arg9) : S64.Idx → EReal) (ix1 q) := by
  have e : (V m c main_v53 : S1x64.Idx → EReal)
      = shapeCast S1x64 (m ((c : Thread nD τ).loc main_arg9) : S64.Idx → EReal) shapeCasts_S64_S1x64 := by
    show StableHlo.after hostOps0 (fun b => m (c, b)) (Proc.devRef .tc main_v53) = _
    after_results_simp
    rfl
  funext q
  rw [e]
  exact shapeCast_a_1a_apply _ _ (0 : Fin 1) q

set_option maxHeartbeats 8000000 in
/-- The second scale vector as one row. -/
theorem gamma_b (c : Dev nD) :
    (fun q : Fin 64 => (V m c main_v54 : S1x64.Idx → EReal) (ix2 (0 : Fin 1) q))
      = fun q : Fin 64 => (m ((c : Thread nD τ).loc main_arg10) : S64.Idx → EReal) (ix1 q) := by
  have e : (V m c main_v54 : S1x64.Idx → EReal)
      = shapeCast S1x64 (m ((c : Thread nD τ).loc main_arg10) : S64.Idx → EReal) shapeCasts_S64_S1x64 := by
    show StableHlo.after hostOps0 (fun b => m (c, b)) (Proc.devRef .tc main_v54) = _
    after_results_simp
    rfl
  funext q
  rw [e]
  exact shapeCast_a_1a_apply _ _ (0 : Fin 1) q

set_option maxHeartbeats 8000000 in
/-- The second shift vector as one row. -/
theorem beta_b (c : Dev nD) :
    (fun q : Fin 64 => (V m c main_v55 : S1x64.Idx → EReal) (ix2 (0 : Fin 1) q))
      = fun q : Fin 64 => (m ((c : Thread nD τ).loc main_arg11) : S64.Idx → EReal) (ix1 q) := by
  have e : (V m c main_v55 : S1x64.Idx → EReal)
      = shapeCast S1x64 (m ((c : Thread nD τ).loc main_arg11) : S64.Idx → EReal) shapeCasts_S64_S1x64 := by
    show StableHlo.after hostOps0 (fun b => m (c, b)) (Proc.devRef .tc main_v55) = _
    after_results_simp
    rfl
  funext q
  rw [e]
  exact shapeCast_a_1a_apply _ _ (0 : Fin 1) q

set_option maxHeartbeats 8000000 in
/-- The second mean vector as one row. -/
theorem mean_b (c : Dev nD) :
    (fun q : Fin 64 => (V m c main_v56 : S1x64.Idx → EReal) (ix2 (0 : Fin 1) q))
      = fun q : Fin 64 => (m ((c : Thread nD τ).loc main_arg12) : S64.Idx → EReal) (ix1 q) := by
  have e : (V m c main_v56 : S1x64.Idx → EReal)
      = shapeCast S1x64 (m ((c : Thread nD τ).loc main_arg12) : S64.Idx → EReal) shapeCasts_S64_S1x64 := by
    show StableHlo.after hostOps0 (fun b => m (c, b)) (Proc.devRef .tc main_v56) = _
    after_results_simp
    rfl
  funext q
  rw [e]
  exact shapeCast_a_1a_apply _ _ (0 : Fin 1) q

set_option maxHeartbeats 8000000 in
/-- The second variance vector as one row. -/
theorem var_b (c : Dev nD) :
    (fun q : Fin 64 => (V m c main_v57 : S1x64.Idx → EReal) (ix2 (0 : Fin 1) q))
      = fun q : Fin 64 => (m ((c : Thread nD τ).loc main_arg13) : S64.Idx → EReal) (ix1 q) := by
  have e : (V m c main_v57 : S1x64.Idx → EReal)
      = shapeCast S1x64 (m ((c : Thread nD τ).loc main_arg13) : S64.Idx → EReal) shapeCasts_S64_S1x64 := by
    show StableHlo.after hostOps0 (fun b => m (c, b)) (Proc.devRef .tc main_v57) = _
    after_results_simp
    rfl
  funext q
  rw [e]
  exact shapeCast_a_1a_apply _ _ (0 : Fin 1) q

end Cert.KernelIdeal.HostArrays

end
-- ==== Proof.RefValue.lean ====
/-
  The reference, entry by entry.

  The reference computes the two projections on the whole 100000×64 arrays with three host matrix products each, added
  left to right, rectifies the first, normalises both with vectors broadcast from [64] through [1,64] to every row, and
  joins the two halves along the columns. Read at row `r` and column `col` through the generated read-at-an-index lemmas
  this is `rowOut` of row `r` of the features and of the two propagated feature arrays — these two, and the six weight
  matrices, kept as the unopened terms the reference's own operations make of the arguments.
-/
import proofs.«149860_j51075751084149_1_alg».proof.Proof.Gen.ReferenceIdeal.Read
import proofs.«149860_j51075751084149_1_alg».proof.Proof.Spec
import Idealize.ShloMosaic.Lib.Pipeline.Value
import Idealize.ShloMosaic.Lib.ValueIdx

noncomputable section

namespace Cert.ProjNorm.Ref

open Idealize.ShloMosaic Idealize.ShloMosaic.ValueIdx
open Cert.ReferenceIdeal Cert.ReferenceIdeal.Gen Cert.ReferenceIdeal.Read

/-! ## The composed index maps at a row and a column

Each matrix product reads row `r` of its left operand and column `q` of its right one; each normalisation vector,
broadcast twice, is read at the column. -/

theorem lidx34 (r : Fin 100000) (q k : Fin 64) : lidx_main_v34 (ix2 r q) k = ix2 r k :=
  funext fun a => Fin.ext (by match a with | ⟨0, _⟩ => rfl | ⟨1, _⟩ => rfl)
theorem ridx34 (r : Fin 100000) (q k : Fin 64) : ridx_main_v34 (ix2 r q) k = ix2 k q :=
  funext fun a => Fin.ext (by match a with | ⟨0, _⟩ => rfl | ⟨1, _⟩ => rfl)
theorem lidx43 (r : Fin 100000) (q k : Fin 64) : lidx_main_v43 (ix2 r q) k = ix2 r k :=
  funext fun a => Fin.ext (by match a with | ⟨0, _⟩ => rfl | ⟨1, _⟩ => rfl)
theorem ridx43 (r : Fin 100000) (q k : Fin 64) : ridx_main_v43 (ix2 r q) k = ix2 k q :=
  funext fun a => Fin.ext (by match a with | ⟨0, _⟩ => rfl | ⟨1, _⟩ => rfl)
theorem lidx46 (r : Fin 100000) (q k : Fin 64) : lidx_main_v46 (ix2 r q) k = ix2 r k :=
  funext fun a => Fin.ext (by match a with | ⟨0, _⟩ => rfl | ⟨1, _⟩ => rfl)
theorem ridx46 (r : Fin 100000) (q k : Fin 64) : ridx_main_v46 (ix2 r q) k = ix2 k q :=
  funext fun a => Fin.ext (by match a with | ⟨0, _⟩ => rfl | ⟨1, _⟩ => rfl)
theorem lidx50 (r : Fin 100000) (q k : Fin 64) : lidx_main_v50 (ix2 r q) k = ix2 r k :=
  funext fun a => Fin.ext (by match a with | ⟨0, _⟩ => rfl | ⟨1, _⟩ => rfl)
theorem ridx50 (r : Fin 100000) (q k : Fin 64) : ridx_main_v50 (ix2 r q) k = ix2 k q :=
  funext fun a => Fin.ext (by match a with | ⟨0, _⟩ => rfl | ⟨1, _⟩ => rfl)
theorem lidx54 (r : Fin 100000) (q k : Fin 64) : lidx_main_v54 (ix2 r q) k = ix2 r k :=
  funext fun a => Fin.ext (by match a with | ⟨0, _⟩ => rfl | ⟨1, _⟩ => rfl)
theorem ridx54 (r : Fin 100000) (q k : Fin 64) : ridx_main_v54 (ix2 r q) k = ix2 k q :=
  funext fun a => Fin.ext (by match a with | ⟨0, _⟩ => rfl | ⟨1, _⟩ => rfl)
theorem lidx58 (r : Fin 100000) (q k : Fin 64) : lidx_main_v58 (ix2 r q) k = ix2 r k :=
  funext fun a => Fin.ext (by match a with | ⟨0, _⟩ => rfl | ⟨1, _⟩ => rfl)
theorem ridx58 (r : Fin 100000) (q k : Fin 64) : ridx_main_v58 (ix2 r q) k = ix2 k q :=
  funext fun a => Fin.ext (by match a with | ⟨0, _⟩ => rfl | ⟨1, _⟩ => rfl)
theorem col64 (r : Fin 100000) (q : Fin 64) : idx_main_v64 (idx_main_v65 (ix2 r q)) = ix1 q :=
  funext fun a => Fin.ext (by match a with | ⟨0, _⟩ => rfl)
theorem col61 (r : Fin 100000) (q : Fin 64) : idx_main_v61 (idx_main_v62 (ix2 r q)) = ix1 q :=
  funext fun a => Fin.ext (by match a with | ⟨0, _⟩ => rfl)
theorem col70 (r : Fin 100000) (q : Fin 64) : idx_main_v70 (idx_main_v71 (ix2 r q)) = ix1 q :=
  funext fun a => Fin.ext (by match a with | ⟨0, _⟩ => rfl)
theorem col73 (r : Fin 100000) (q : Fin 64) : idx_main_v73 (idx_main_v74 (ix2 r q)) = ix1 q :=
  funext fun a => Fin.ext (by match a with | ⟨0, _⟩ => rfl)
theorem col79 (r : Fin 100000) (q : Fin 64) : idx_main_v79 (idx_main_v80 (ix2 r q)) = ix1 q :=
  funext fun a => Fin.ext (by match a with | ⟨0, _⟩ => rfl)
theorem col76 (r : Fin 100000) (q : Fin 64) : idx_main_v76 (idx_main_v77 (ix2 r q)) = ix1 q :=
  funext fun a => Fin.ext (by match a with | ⟨0, _⟩ => rfl)
theorem col85 (r : Fin 100000) (q : Fin 64) : idx_main_v85 (idx_main_v86 (ix2 r q)) = ix1 q :=
  funext fun a => Fin.ext (by match a with | ⟨0, _⟩ => rfl)
theorem col88 (r : Fin 100000) (q : Fin 64) : idx_main_v88 (idx_main_v89 (ix2 r q)) = ix1 q :=
  funext fun a => Fin.ext (by match a with | ⟨0, _⟩ => rfl)

variable (x0 : (⟨S100000x64, .f32⟩ : BufTy).Contents (Elt Ideal)) (x1 x2 : (⟨S1600000, .i32⟩ : BufTy).Contents (Elt Ideal)) (x3 : (⟨S1600000, .f32⟩ : BufTy).Contents (Elt Ideal))
  (x4 x5 : (⟨S5x64x64, .f32⟩ : BufTy).Contents (Elt Ideal))
  (x6 x7 x8 x9 x10 x11 x12 x13 : (⟨S64, .f32⟩ : BufTy).Contents (Elt Ideal))

/-- The left half at row `r`, column `q`: the rectified first projection, normalised. -/
theorem left_apply (r : Fin 100000) (q : Fin 64) :
    val_main_v75 (F := Ideal) x0 x1 x2 x3 x4 x6 x7 x8 x9 (ix2 r q)
      = norm (fun q => x6 (ix1 q)) (fun q => x7 (ix1 q)) (fun q => x8 (ix1 q)) (fun q => x9 (ix1 q))
          (max (rowLin (fun k => x0 (ix2 r k)) (fun k => val_main_v12 (F := Ideal) x0 x1 x2 x3 (ix2 r k))
              (fun k => val_main_v25 (F := Ideal) x0 x1 x2 x3 (ix2 r k))
              (val_main_v33 (F := Ideal) x4) (val_main_v45 (F := Ideal) x4) (val_main_v53 (F := Ideal) x4) q)
            (Ideal.ofBits .f32 0x00000000#32)) q := by
  rw [val_main_v75_apply, val_main_v72_apply, val_main_v66_apply, val_main_v65_apply, val_main_v64_apply, val_main_v63_apply,
    val_main_v60_apply, val_main_v55_apply, val_main_v47_apply, val_main_v34_apply, val_main_v46_apply, val_main_v54_apply,
    val_main_call0_v0_apply, val_main_call0_cst_apply, val_main_v62_apply, val_main_v61_apply, val_main_v71_apply,
    val_main_v70_apply, val_main_v69_apply, val_main_v68_apply, val_main_v67_apply, val_main_cst_4_apply, val_main_v74_apply,
    val_main_v73_apply]
  simp only [lidx34, ridx34, lidx46, ridx46, lidx54, ridx54, col64, col61, col70, col73]
  rfl

/-- The right half at row `r`, column `q`: the second projection, normalised. -/
theorem right_apply (r : Fin 100000) (q : Fin 64) :
    val_main_v90 (F := Ideal) x0 x1 x2 x3 x5 x10 x11 x12 x13 (ix2 r q)
      = norm (fun q => x10 (ix1 q)) (fun q => x11 (ix1 q)) (fun q => x12 (ix1 q)) (fun q => x13 (ix1 q))
          (rowLin (fun k => x0 (ix2 r k)) (fun k => val_main_v12 (F := Ideal) x0 x1 x2 x3 (ix2 r k))
              (fun k => val_main_v25 (F := Ideal) x0 x1 x2 x3 (ix2 r k))
              (val_main_v42 (F := Ideal) x5) (val_main_v49 (F := Ideal) x5) (val_main_v57 (F := Ideal) x5) q) q := by
  rw [val_main_v90_apply, val_main_v87_apply, val_main_v81_apply, val_main_v80_apply, val_main_v79_apply, val_main_v78_apply,
    val_main_v59_apply, val_main_v51_apply, val_main_v43_apply, val_main_v50_apply, val_main_v58_apply,
    val_main_v77_apply, val_main_v76_apply, val_main_v86_apply,
    val_main_v85_apply, val_main_v84_apply, val_main_v83_apply, val_main_v82_apply, val_main_cst_5_apply, val_main_v89_apply,
    val_main_v88_apply]
  simp only [lidx43, ridx43, lidx50, ridx50, lidx58, ridx58, col79, col76, col85, col88]
  rfl

/-- The two halves joined along the columns: column `col` of the result is column `col % 64` of the left half when
    `col / 64 = 0`, of the right half otherwise. -/
theorem join_apply (A B : (⟨S100000x64, .f32⟩ : BufTy).Contents (Elt Ideal)) (y : S100000x128.Idx) :
    concatenate S100000x128 1 [⟨S100000x64, A⟩, ⟨S100000x64, B⟩] concatenates_S100000x64_S100000x64_S100000x128_d1 y
      = if (y 1).val / 64 = 0 then A (ix2 (⟨(y 0).val, (y 0).isLt⟩ : Fin 100000) (colOf (y 1).val))
        else B (ix2 (⟨(y 0).val, (y 0).isLt⟩ : Fin 100000) (colOf (y 1).val)) := by
  have hy1 : (y 1).val < 128 := (y 1).isLt
  let f : Fin 2 → (⟨S100000x64, .f32⟩ : BufTy).Contents (Elt Ideal) := fun n => match n with | ⟨0, _⟩ => A | ⟨1, _⟩ => B
  show concatenate S100000x128 1 (List.ofFn fun n : Fin 2 => (⟨S100000x64, f n⟩ : (s : Shape) × (s.Idx → _))) _ y = _
  refine (concatenate_ofFn_apply (t := S100000x128) (s₁ := S100000x64) (1 : Fin 2) f _ rfl 64 rfl y
    ⟨(y 1).val / 64, by omega⟩ rfl (ix2 (⟨(y 0).val, (y 0).isLt⟩ : Fin 100000) (colOf (y 1).val)) rfl
    (fun b hb => by
      match b with
      | ⟨0, _⟩ => rfl
      | ⟨1, _⟩ => exact absurd rfl hb)).trans ?_
  by_cases h : (y 1).val / 64 = 0
  · rw [if_pos h]
    have e : (⟨(y 1).val / 64, by omega⟩ : Fin 2) = ⟨0, by decide⟩ := Fin.ext h
    rw [e]
  · rw [if_neg h]
    have e : (⟨(y 1).val / 64, by omega⟩ : Fin 2) = ⟨1, by decide⟩ := Fin.ext (by show (y 1).val / 64 = 1; omega)
    rw [e]

/-- THE REFERENCE'S RESULT is the row function of the features, of the propagated features and of the weights as the
    reference's own operations make them, and of the eight normalisation vectors. -/
theorem result_eq :
    val_main_v91 (F := Ideal) x0 x1 x2 x3 x4 x5 x6 x7 x8 x9 x10 x11 x12 x13
      = result (n := 100000) x0 (val_main_v12 (F := Ideal) x0 x1 x2 x3) (val_main_v25 (F := Ideal) x0 x1 x2 x3)
          (val_main_v33 (F := Ideal) x4) (val_main_v45 (F := Ideal) x4) (val_main_v53 (F := Ideal) x4)
          (val_main_v42 (F := Ideal) x5) (val_main_v49 (F := Ideal) x5) (val_main_v57 (F := Ideal) x5)
          (fun q => x6 (ix1 q)) (fun q => x7 (ix1 q)) (fun q => x8 (ix1 q)) (fun q => x9 (ix1 q))
          (fun q => x10 (ix1 q)) (fun q => x11 (ix1 q)) (fun q => x12 (ix1 q)) (fun q => x13 (ix1 q)) := by
  funext y
  unfold val_main_v91
  rw [join_apply]
  unfold result rowOut
  by_cases h : (y 1).val / 64 = 0
  · rw [if_pos h, if_pos h, left_apply]
  · rw [if_neg h, if_neg h, right_apply]

end Cert.ProjNorm.Ref

end
-- ==== Proof.lean ====
/-
  The kernel and its reference compute the same function on the extended reals.

  Both programs first propagate the features once and twice along the edges (gather, scale, scatter-add) and cut the two
  weight tensors into a summed matrix and two slices each — the same host operations on the same arguments, kept here as
  the unopened terms they are. The kernel then projects, rectifies and normalises 5000 rows at a time on the matrix
  unit; the reference does so on the whole arrays. Row by row both are the function `rowOut` of Spec.lean:

    * KernelBlock.lean reads one block of the kernel entry by entry (a matrix-unit product into zero is the plain sum of
      products; rounding to bf16 is the identity on the extended reals);
    * KernelArray.lean carries the twenty blocks to the whole result array;
    * HostArrays.lean identifies the arrays the call finds with the reference's own stages;
    * RefValue.lean reads the reference entry by entry.

  The two programs add their three products and multiply their normalisation factors in the same order, so the two
  results are one term and no law of arithmetic is used: the precondition (finite inputs) is never opened.
  The ideal pass rewrote nothing, so `preserves` is trivial. The three frames are the programs' generated frame runs.
-/
import proofs.«149860_j51075751084149_1_alg».proof.Defs
import proofs.«149860_j51075751084149_1_alg».proof.Proof.Gen.Kernel
import proofs.«149860_j51075751084149_1_alg».proof.Proof.Gen.Kernel.Skeleton
import proofs.«149860_j51075751084149_1_alg».proof.Proof.Gen.Kernel.Points
import proofs.«149860_j51075751084149_1_alg».proof.Proof.PatchedKernelLaunch
import proofs.«149860_j51075751084149_1_alg».proof.Proof.PatchedKernelFrame
import proofs.«149860_j51075751084149_1_alg».proof.Proof.Gen.KernelIdeal
import proofs.«149860_j51075751084149_1_alg».proof.Proof.Gen.KernelIdeal.Skeleton
import proofs.«149860_j51075751084149_1_alg».proof.Proof.Gen.KernelIdeal.Points
import proofs.«149860_j51075751084149_1_alg».proof.Proof.PatchedKernelIdealLaunch
import proofs.«149860_j51075751084149_1_alg».proof.Proof.PatchedKernelIdealFrame
import proofs.«149860_j51075751084149_1_alg».proof.Proof.PatchedKernelIdealValue
import proofs.«149860_j51075751084149_1_alg».proof.Proof.Gen.ReferenceIdeal
import proofs.«149860_j51075751084149_1_alg».proof.Proof.Gen.ReferenceIdeal.Run
import proofs.«149860_j51075751084149_1_alg».proof.Proof.Gen.ReferenceIdeal.Read
import proofs.«149860_j51075751084149_1_alg».proof.Proof.Gen.Pre_finite_inputs
import proofs.«149860_j51075751084149_1_alg».proof.Proof.KernelArray
import proofs.«149860_j51075751084149_1_alg».proof.Proof.HostArrays
import proofs.«149860_j51075751084149_1_alg».proof.Proof.RefValue
import Idealize.ShloMosaic.Adequacy
import Idealize.ShloMosaic.Init

noncomputable section

namespace Cert.Proof

open Idealize.ShloMosaic Idealize.SL.Sem

/-- The function the kernel's result array holds (`G`, over the arrays the call finds) is the reference's last stage at
    the kernel's arguments: each array the call finds is a stage of the reference, and the reference's result is the
    same row function of those stages. -/
theorem G_eq (m : (ℓ : Loc Cert.KernelIdeal.nD Cert.KernelIdeal.τ Cert.KernelIdeal.sig) → Buf (Elt Ideal) ℓ)
    (c : Dev Cert.KernelIdeal.nD) :
    Cert.KernelIdeal.ArrayValue.G m c
      = Cert.ReferenceIdeal.Read.val_main_v91 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)) := by
  rw [Cert.ProjNorm.Ref.result_eq]
  unfold Cert.KernelIdeal.ArrayValue.G
  rw [Cert.KernelIdeal.GenP.V_main_arg0 m c, Cert.KernelIdeal.HostArrays.prop1 m c, Cert.KernelIdeal.HostArrays.prop2 m c,
    Cert.KernelIdeal.HostArrays.wa_sum m c, Cert.KernelIdeal.HostArrays.wa_3 m c, Cert.KernelIdeal.HostArrays.wa_4 m c,
    Cert.KernelIdeal.HostArrays.wb_sum m c, Cert.KernelIdeal.HostArrays.wb_3 m c, Cert.KernelIdeal.HostArrays.wb_4 m c,
    Cert.KernelIdeal.HostArrays.gamma_a m c, Cert.KernelIdeal.HostArrays.beta_a m c, Cert.KernelIdeal.HostArrays.mean_a m c,
    Cert.KernelIdeal.HostArrays.var_a m c, Cert.KernelIdeal.HostArrays.gamma_b m c, Cert.KernelIdeal.HostArrays.beta_b m c,
    Cert.KernelIdeal.HostArrays.mean_b m c, Cert.KernelIdeal.HostArrays.var_b m c]

/-- The idealized kernel's run: its result array ends at the reference's last stage of its own arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
      r.2.mem ((c.tc : Thread Cert.KernelIdeal.nD Cert.KernelIdeal.τ).loc Cert.KernelIdeal.main_v58)
        = Cert.ReferenceIdeal.Read.val_main_v91 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13) :=
  (θ_run Cert.KernelIdeal.defs _ _).mono (fun r h c => ⟨(h c).1.trans (G_eq m c), (h c).2⟩)
    (Cert.KernelIdeal.ArrayValue.run m ρ)

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at the reference's last stage of
    those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v91_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
